-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_arg4)) (v1 : (c : Dev Cert.KernelIdeal.nD) → Buf (Elt Ideal) ((c.tc : Thread Cert.KernelIdeal.nD Cert.KernelIdeal.τ).loc Cert.KernelIdeal.main_arg5)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg4) = v0 c
          ∧ r.2.mem ((c.tc : Thread Cert.KernelIdeal.nD Cert.KernelIdeal.τ).loc Cert.KernelIdeal.main_arg5) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg4) = v0 c
          ∧ r.2.mem ((c.tc : Thread Cert.ReferenceIdeal.nD Cert.ReferenceIdeal.τ).loc Cert.ReferenceIdeal.main_arg5) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v22) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg8 : FVec F S128x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg8
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : IVec S100000 32) (main_arg5 : IVec S100000 32) (main_arg6 : FVec F S128x256 .f32) (main_arg7 : FVec F S256 .f32) (main_arg8 : FVec F S128x256 .f32) (main_arg9 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg6
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_v13 main_v16
-- ==== Kernel.lean ====
abbrev S100000x128 : Shape := ⟨2, ![100000, 128]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S50000x128 : Shape := ⟨2, ![50000, 128]⟩
abbrev S100000x256 : Shape := ⟨2, ![100000, 256]⟩
abbrev S5000x128 : Shape := ⟨2, ![5000, 128]⟩
abbrev S5000x256 : Shape := ⟨2, ![5000, 256]⟩
abbrev S1x256 : Shape := ⟨2, ![1, 256]⟩
abbrev S50000x256 : Shape := ⟨2, ![50000, 256]⟩

abbrev nBuf : Space → Nat
  | .hbm => 28
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .i32⟩
  | .hbm, ⟨5, _⟩ => ⟨S100000, .i32⟩
  | .hbm, ⟨6, _⟩ => ⟨S128x256, .f32⟩
  | .hbm, ⟨7, _⟩ => ⟨S256, .f32⟩
  | .hbm, ⟨8, _⟩ => ⟨S128x256, .f32⟩
  | .hbm, ⟨9, _⟩ => ⟨S256, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S100000x256, .f32⟩
  | .hbm, ⟨27, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S5000x128, .f32⟩
  | .local _ .vmem, ⟨7, _⟩ => ⟨S5000x128, .f32⟩
  | .local _ .vmem, ⟨8, _⟩ => ⟨S128x256, .f32⟩
  | .local _ .vmem, ⟨9, _⟩ => ⟨S256, .f32⟩
  | .local _ .vmem, ⟨10, _⟩ => ⟨S5000x256, .f32⟩
  | .local _ .vmem, ⟨11, _⟩ => ⟨S5000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S5000x128_S5000x128 : S5000x128.ShapeCasts S5000x128
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S100000x256.size a
  hwx0_3 : ∀ i : grid0.Coords, EltTy.bits .f32 = 32 ∨ (Rect.block (s := S100000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S50000x128 : Shape := ⟨2, ![50000, 128]⟩
abbrev S100000x256 : Shape := ⟨2, ![100000, 256]⟩
abbrev S1x256 : Shape := ⟨2, ![1, 256]⟩
abbrev S50000x256 : Shape := ⟨2, ![50000, 256]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000, .i32⟩
  | .hbm, ⟨5, _⟩ => ⟨S100000, .i32⟩
  | .hbm, ⟨6, _⟩ => ⟨S128x256, .f32⟩
  | .hbm, ⟨7, _⟩ => ⟨S256, .f32⟩
  | .hbm, ⟨8, _⟩ => ⟨S128x256, .f32⟩
  | .hbm, ⟨9, _⟩ => ⟨S256, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S100000x256, .f32⟩
  | .hbm, ⟨27, _⟩ => ⟨S1x256, .f32⟩
  | .hbm, ⟨28, _⟩ => ⟨S100000x256, .f32⟩
  | .hbm, ⟨29, _⟩ => ⟨S100000x256, .f32⟩
  | .hbm, ⟨30, _⟩ => ⟨S_, .f32⟩
  | .hbm, ⟨31, _⟩ => ⟨S100000x256, .f32⟩
  | .hbm, ⟨32, _⟩ => ⟨S100000x256, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_cst : Ref sig .tc := ⟨.hbm, 37, rfl⟩
abbrev main_call1_v0 : Ref sig .tc := ⟨.hbm, 38, rfl⟩
abbrev main_v22 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  dot_S100000x128_S128x256_S100000x256_1_0_0_1_n_n_wf : DotDims.WF S100000x128 S128x256 S100000x256 [1] [0] [0] [1] [] []
  dot_S50000x128_S128x256_S50000x256_1_0_0_1_n_n_wf : DotDims.WF S50000x128 S128x256 S50000x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.KernelRun.lean ====
/-
  The kernel's run with its two result arrays named.

  The program is a stretch of host operations followed by two kernel regions. Its run through those three segments ends
  with every buffer of the TensorCore at the contents the segments' fold gives it: a region's result array at what its
  pipeline's write-backs leave, every other buffer as the region found it. Read at the final state, that gives each of
  the two result arrays as the fold's value at its buffer, beside the ten argument arrays as launched. The value of the
  fold at the two result buffers is opened in the modules that follow.
-/
import proofs.«142913_j82231443849935_1_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result arrays at the value
    the segments' fold has at their buffers and the argument arrays as launched. -/
theorem run : θ_run defs (onTc (τ := τ) (main (F := F))) ⟨m, fun _ => 0, ρ⟩ (fun r => ∀ c : Dev nD,
      r.2.mem ((c.tc : Thread nD τ).loc main_v13) = W3 m ρ c (Proc.devRef .tc main_v13)
      ∧ r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v13 (by decide)),
       h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c)⟩)

end Cert.KernelIdeal.Outputs

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibRowLayers.lean ====
/-
  Dense layers followed by a rectifier, read as functions of rows on the extended reals.

  A layer with one factor sends a matrix x [M, K], a weight w [K, N] and a bias b [N] to the matrix whose entry
  (p, f) is max (sum over d of x (p, d) * w (d, f) + b f, 0): entry (p, f) depends on row p of x only. A layer with three
  factors adds three such inner products, ((x1.w1 + x2.w2) + x3.w3) + b, in that order of additions, before the
  rectifier. Each is stated twice: in the form a vector unit computes it (operands narrowed to bf16 first, which changes
  nothing on the extended reals; a matrix product into a zero accumulator; the bias recast to a row and spread over the
  rows; the maximum with a spread scalar zero) and in the form of the host's array operations (dot_general; the bias
  placed on axis 1 of [1, N] and spread over [M, N]; the maximum with a spread rank-0 zero). No law of arithmetic is
  needed: both forms are the same tree of sums, products and maxima at every index.
-/
import Idealize.ShloMosaic.PureOps.Ideal.Laws
import Idealize.ShloMosaic.Lib.ValueIdx
import Idealize.ShloMosaic.Lib.ValueLayout
import Idealize.ShloMosaic.Lib.Pipeline.Value
import proofs.«142913_j82231443849935_1_alg».proof.Proof.LibInnerProducts
import proofs.«142913_j82231443849935_1_alg».proof.Proof.LibInDimRow

noncomputable section

namespace Cert.LibRowLayers

open Idealize.ShloMosaic Idealize.ShloMosaic.ValueIdx Idealize.ShloMosaic.InnerProducts
open scoped BigOperators

/-- Row p of x against column f of w: the sum over d of x (p, d) * w (d, f). -/
def inner {M K N : ℕ} (x : FVec Ideal ⟨2, ![M, K]⟩ .f32) (w : FVec Ideal ⟨2, ![K, N]⟩ .f32) (p : Fin M) (f : Fin N) : EReal :=
  ∑ d : Fin K, x (ix2 p d) * w (ix2 d f)

/-- The one-factor layer: entry (p, f) is max (x_p . w_f + b f, 0). -/
def layer1 {M K N : ℕ} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun i => max (inner x w (i 0) (i 1) + b (ix1 (i 1))) (Ideal.ofBits .f32 0x00000000#32)

/-- The three-factor layer: entry (p, f) is max (((x1_p . w1_f + x2_p . w2_f) + x3_p . w3_f) + b f, 0). -/
def layer3 {M K1 K2 K3 N : ℕ} (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32) : FVec Ideal ⟨2, ![M, N]⟩ .f32 :=
  fun i => max (((inner x1 w1 (i 0) (i 1) + inner x2 w2 (i 0) (i 1)) + inner x3 w3 (i 0) (i 1)) + b (ix1 (i 1)))
    (Ideal.ofBits .f32 0x00000000#32)

/-- A matrix product of bf16-narrowed operands into the zero accumulator, at (p, f), is the inner product. -/
theorem narrowed_matmul_apply {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (hn : FTy.bf16.bits < FTy.f32.bits)
    (p : Fin M) (f : Fin N) :
    matmul D prec (truncf .bf16 x hn) (truncf .bf16 w hn) (constant (F := Ideal) ⟨2, ![M, N]⟩ .f32 0x00000000#32) (ix2 p f)
      = inner x w p f :=
  matmul_zero_apply D hD prec (truncf .bf16 x hn) (truncf .bf16 w hn) p f

/-- The bias as the vector unit spreads it: recast [N] to [1, N], then spread over [M, N]. -/
theorem row_bias_apply {M N : ℕ} (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (f : Fin N) :
    broadcastTo ⟨2, ![M, N]⟩ (shapeCast ⟨2, ![1, N]⟩ b hc) hb (ix2 p f) = b (ix1 f) := by
  rw [broadcastTo_1b_ab_apply _ hb p f, shapeCast_a_1a_apply b hc 0 f]

/-- The bias as the host spreads it: placed on axis 1 of [1, N], then spread over [M, N]. -/
theorem host_bias_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (f : Fin N) :
    broadcastInDim ⟨2, ![M, N]⟩ ![0, 1] h2 (broadcastInDim ⟨2, ![1, N]⟩ ![1] h1 b) (ix2 p f) = b (ix1 f) := by
  rw [Cert.LibInDimRow.inDim_1b_ab_apply _ h2 p f, Cert.LibInDimRow.inDim_b_1b_apply b h1 0 f]

/-- A rank-0 value spread over a matrix reads that value everywhere. -/
theorem host_scalar_apply {M N : ℕ} (v : FVec Ideal ⟨0, ![]⟩ .f32)
    (h0 : (⟨0, ![]⟩ : Shape).BroadcastsInDim ⟨2, ![M, N]⟩ ![]) (i : (⟨2, ![M, N]⟩ : Shape).Idx) :
    broadcastInDim ⟨2, ![M, N]⟩ ![] h0 v i = v ix0 :=
  broadcastInDim_apply _ h0 v i ix0 fun ax => ax.elim0

/-- The one-factor layer as a vector unit computes it. -/
theorem unit_layer1 {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨1, ![N]⟩ .f32)
    (hn : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf (matmul D prec (truncf .bf16 x hn) (truncf .bf16 w hn) (constant (F := Ideal) ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32))
    = layer1 x w b := by
  funext i
  obtain ⟨p, f, rfl⟩ : ∃ (p : Fin M) (f : Fin N), i = ix2 p f := ⟨i 0, i 1, eq_ix2 i⟩
  rw [maximumf_apply, addf_apply, narrowed_matmul_apply D hD prec x w hn p f, row_bias_apply b hc hb p f, broadcast_apply]
  rfl

/-- The one-factor layer as the host's array operations compute it. -/
theorem host_layer1 {M K N : ℕ} (D : DotDims ⟨2, ![M, K]⟩ ⟨2, ![K, N]⟩ ⟨2, ![M, N]⟩)
    (hD : D = DotDims.plain M K N) (prec : Option ContractPrecision)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral D prec x w) (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = layer1 x w b := by
  funext i
  obtain ⟨p, f, rfl⟩ : ∃ (p : Fin M) (f : Fin N), i = ix2 p f := ⟨i 0, i 1, eq_ix2 i⟩
  rw [maximumf_apply, addf_apply, dotGeneral_apply D hD prec x w p f, host_bias_apply b h1 h2 p f, host_scalar_apply _ h0]
  rfl

/-- The three-factor layer as a vector unit computes it. -/
theorem unit_layer3 {M K1 K2 K3 N : ℕ}
    (D1 : DotDims ⟨2, ![M, K1]⟩ ⟨2, ![K1, N]⟩ ⟨2, ![M, N]⟩) (hD1 : D1 = DotDims.plain M K1 N)
    (D2 : DotDims ⟨2, ![M, K2]⟩ ⟨2, ![K2, N]⟩ ⟨2, ![M, N]⟩) (hD2 : D2 = DotDims.plain M K2 N)
    (D3 : DotDims ⟨2, ![M, K3]⟩ ⟨2, ![K3, N]⟩ ⟨2, ![M, N]⟩) (hD3 : D3 = DotDims.plain M K3 N)
    (prec : Option ContractPrecision)
    (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32) (hn : FTy.bf16.bits < FTy.f32.bits)
    (hc : (⟨1, ![N]⟩ : Shape).ShapeCasts ⟨2, ![1, N]⟩) (hb : (⟨2, ![1, N]⟩ : Shape).Broadcasts ⟨2, ![M, N]⟩) :
    maximumf (addf (addf (addf
          (matmul D1 prec (truncf .bf16 x1 hn) (truncf .bf16 w1 hn) (constant (F := Ideal) ⟨2, ![M, N]⟩ .f32 0x00000000#32))
          (matmul D2 prec (truncf .bf16 x2 hn) (truncf .bf16 w2 hn) (constant (F := Ideal) ⟨2, ![M, N]⟩ .f32 0x00000000#32)))
          (matmul D3 prec (truncf .bf16 x3 hn) (truncf .bf16 w3 hn) (constant (F := Ideal) ⟨2, ![M, N]⟩ .f32 0x00000000#32)))
        (broadcastTo ⟨2, ![M, N]⟩ (shapeCast ⟨2, ![1, N]⟩ b hc) hb))
      (broadcast ⟨2, ![M, N]⟩ (Scalar.ofBits (F := Ideal) .f32 0x00000000#32))
    = layer3 x1 w1 x2 w2 x3 w3 b := by
  funext i
  obtain ⟨p, f, rfl⟩ : ∃ (p : Fin M) (f : Fin N), i = ix2 p f := ⟨i 0, i 1, eq_ix2 i⟩
  rw [maximumf_apply, addf_apply, addf_apply, addf_apply, narrowed_matmul_apply D1 hD1 prec x1 w1 hn p f,
    narrowed_matmul_apply D2 hD2 prec x2 w2 hn p f, narrowed_matmul_apply D3 hD3 prec x3 w3 hn p f,
    row_bias_apply b hc hb p f, broadcast_apply]
  rfl

/-- The three-factor layer as the host's array operations compute it. -/
theorem host_layer3 {M K1 K2 K3 N : ℕ}
    (D1 : DotDims ⟨2, ![M, K1]⟩ ⟨2, ![K1, N]⟩ ⟨2, ![M, N]⟩) (hD1 : D1 = DotDims.plain M K1 N)
    (D2 : DotDims ⟨2, ![M, K2]⟩ ⟨2, ![K2, N]⟩ ⟨2, ![M, N]⟩) (hD2 : D2 = DotDims.plain M K2 N)
    (D3 : DotDims ⟨2, ![M, K3]⟩ ⟨2, ![K3, N]⟩ ⟨2, ![M, N]⟩) (hD3 : D3 = DotDims.plain M K3 N)
    (prec : Option ContractPrecision)
    (x1 : FVec Ideal ⟨2, ![M, K1]⟩ .f32) (w1 : FVec Ideal ⟨2, ![K1, N]⟩ .f32)
    (x2 : FVec Ideal ⟨2, ![M, K2]⟩ .f32) (w2 : FVec Ideal ⟨2, ![K2, N]⟩ .f32)
    (x3 : FVec Ideal ⟨2, ![M, K3]⟩ .f32) (w3 : FVec Ideal ⟨2, ![K3, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (addf (Host.dotGeneral D1 prec x1 w1) (Host.dotGeneral D2 prec x2 w2)) (Host.dotGeneral D3 prec x3 w3))
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = layer3 x1 w1 x2 w2 x3 w3 b := by
  funext i
  obtain ⟨p, f, rfl⟩ : ∃ (p : Fin M) (f : Fin N), i = ix2 p f := ⟨i 0, i 1, eq_ix2 i⟩
  rw [maximumf_apply, addf_apply, addf_apply, addf_apply, dotGeneral_apply D1 hD1 prec x1 w1 p f,
    dotGeneral_apply D2 hD2 prec x2 w2 p f, dotGeneral_apply D3 hD3 prec x3 w3 p f,
    host_bias_apply b h1 h2 p f, host_scalar_apply _ h0]
  rfl

end Cert.LibRowLayers

end
-- ==== Proof.LibLayerRows.lean ====
/-
  A dense layer with a rectifier, read row by row.

  Entry (p, f) of max (x . w + b, 0) is max (sum over d of x (p, d) * w (d, f) + b f, 0): it reads row p of the left
  factor and nothing else of it. So a block of consecutive rows of the left factor, pushed through the layer, is the same
  block of rows of the whole matrix pushed through the layer: a grid of row blocks computes the layer of the whole
  matrix, whatever the number of blocks. No law of arithmetic is used, only that the two sides are one expression.
-/
import proofs.«142913_j82231443849935_1_alg».proof.Proof.LibRowLayers

noncomputable section

namespace Cert.LibLayerRows

open Idealize.ShloMosaic Idealize.ShloMosaic.ValueIdx Cert.LibRowLayers
open scoped BigOperators

/-- If row p of the block xb is row q of the matrix X, the layer of xb at (p, f) is the layer of X at (q, f). -/
theorem layer1_row_congr {M M' K N : ℕ} (X : FVec Ideal ⟨2, ![M, K]⟩ .f32) (xb : FVec Ideal ⟨2, ![M', K]⟩ .f32)
    (w : FVec Ideal ⟨2, ![K, N]⟩ .f32) (b : FVec Ideal ⟨1, ![N]⟩ .f32) (p : Fin M') (q : Fin M) (f : Fin N)
    (h : ∀ d : Fin K, xb (ix2 p d) = X (ix2 q d)) :
    layer1 xb w b (ix2 p f) = layer1 X w b (ix2 q f) := by
  show max ((∑ d : Fin K, xb (ix2 p d) * w (ix2 d f)) + b (ix1 f)) _
    = max ((∑ d : Fin K, X (ix2 q d) * w (ix2 d f)) + b (ix1 f)) _
  rw [Finset.sum_congr rfl fun d _ => by rw [h d]]

/-- The same at indices given by their coordinates' values: block index y, matrix index i, with i's row the row of
    the matrix that row (y 0) of the block is, and the same column. -/
theorem layer1_block {M M' K N : ℕ} (X : FVec Ideal ⟨2, ![M, K]⟩ .f32) (xb : FVec Ideal ⟨2, ![M', K]⟩ .f32)
    (w : FVec Ideal ⟨2, ![K, N]⟩ .f32) (b : FVec Ideal ⟨1, ![N]⟩ .f32)
    (y : (⟨2, ![M', N]⟩ : Shape).Idx) (i : (⟨2, ![M, N]⟩ : Shape).Idx) (hcol : (i 1).val = (y 1).val)
    (h : ∀ d : Fin K, xb (ix2 (y 0) d) = X (ix2 (i 0) d)) :
    layer1 xb w b y = layer1 X w b i := by
  have e : (i 1 : Fin N) = y 1 := Fin.ext hcol
  rw [eq_ix2 y, eq_ix2 i, e]
  exact layer1_row_congr X xb w b (y 0) (i 0) (y 1) h

end Cert.LibLayerRows

end
-- ==== Proof.Region0.lean ====
/-
  Region 0 of the kernel: the layer max (x . w + b, 0) of a [100000, 128] matrix, computed over 20 blocks of 5000 rows.

  At grid point t the body loads rows 5000 t .. 5000 t + 4999 of the left factor, the whole [128, 256] weight and the
  whole [256] bias, and stores the layer of those: entry (p, f) of the stored block is
  max (sum over d of x (5000 t + p, d) * w (d, f) + b f, 0), which is entry (5000 t + p, f) of the layer of the whole
  matrix, since an entry of the layer reads one row of the left factor only. The 20 blocks written back tile the
  [100000, 256] result (row r lies in block r / 5000), so the result array ends holding the layer of the whole matrix,
  as one function of the arrays the region finds at its entry.
-/
import proofs.«142913_j82231443849935_1_alg».proof.Proof.Gen.KernelIdeal.Frame
import proofs.«142913_j82231443849935_1_alg».proof.Proof.LibLayerRows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.LibRowLayers Cert.LibLayerRows

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- What the body's one store leaves in the output's staging buffer is the layer of its three loaded blocks. -/
theorem stored_eq_layer (x0 : Vec Ideal S5000x128 .f32) (x1 : Vec Ideal S128x256 .f32) (x2 : Vec Ideal S256 .f32) :
    out0_3 (F := Ideal) x0 x1 x2 = layer1 x0 x1 x2 := by
  unfold out0_3
  rw [View.canon_unit_zero zero2]
  simp only [View.ld_unit_zero (S := S5000x128) zero2, View.ld_unit_zero (S := S128x256) zero2,
    View.ld_unit_zero (S := S256) zero1]
  unfold k0_pay1
  exact unit_layer1 _ rfl none x0 x1 x2 _ _ _

/-- The printed index maps over the grid: the left factor's and the result's block index is the point's number on the
    row axis and 0 on the column axis; the weight's and the bias's block index is 0. -/
theorem index_maps : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The left factor's block at point t, at (p, d), is the array at (5000 t + p, d). -/
theorem rows_block (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → EReal) i := by
  obtain ⟨e0, e1, -⟩ := index_maps t
  unfold iblk0
  rw [View.read_apply]
  show V c main_arg0 _ = V c main_arg0 i
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight's block at any point is the whole weight. -/
theorem weight_block (c : Dev nD) (t : Fin cfg0.N) :
    (iblk0 V c 1 t : Vec Ideal S128x256 .f32) = (V c main_arg6 : S128x256.Idx → EReal) := by
  obtain ⟨-, -, e2, e3, -⟩ := index_maps t
  funext y
  unfold iblk0
  rw [View.read_apply]
  show V c main_arg6 _ = V c main_arg6 y
  refine congrArg _ (funext fun a => Fin.ext ?_)
  match a with
  | ⟨0, _⟩ => show win0_1.index t (0 : Fin 2) * 128 + 1 * (y 0).val = (y 0).val; rw [e2]; omega
  | ⟨1, _⟩ => show win0_1.index t (1 : Fin 2) * 256 + 1 * (y 1).val = (y 1).val; rw [e3]; omega

/-- The bias's block at any point is the whole bias. -/
theorem bias_block (c : Dev nD) (t : Fin cfg0.N) :
    (iblk0 V c 2 t : Vec Ideal S256 .f32) = (V c main_arg7 : S256.Idx → EReal) := by
  obtain ⟨-, -, -, -, e4, -⟩ := index_maps t
  funext y
  unfold iblk0
  rw [View.read_apply]
  show V c main_arg7 _ = V c main_arg7 y
  refine congrArg _ (funext fun a => Fin.ext ?_)
  match a with
  | ⟨0, _⟩ => show win0_2.index t (0 : Fin 1) * 256 + 1 * (y 0).val = (y 0).val; rw [e4]; omega

/-- What point t writes back is block t of the layer of the whole arrays. -/
theorem written_back (c : Dev nD) (t : Fin cfg0.N) :
    (dat0 V c).flushed 3 t
      = ((cfg0.win 3).blk t).view.read (Elt Ideal) (layer1 (V c main_arg0) (V c main_arg6) (V c main_arg7)) := by
  show (cfg0.win 3).cut (grid0.coords t) ((dat0 V c).after 3 t) = _
  rw [after0_3, stored_eq_layer, weight_block, bias_block]
  obtain ⟨-, -, -, -, -, e5, e6⟩ := index_maps t
  funext y
  rw [View.read_apply]
  refine layer1_block (V c main_arg0) _ (V c main_arg6) (V c main_arg7) y _ ?_ fun d => ?_
  · show win0_3.index t (1 : Fin 2) * 256 + 1 * (y 1).val = (y 1).val
    rw [e6]; omega
  · refine rows_block V c t _ _ ?_ rfl
    show win0_3.index t (0 : Fin 2) * 5000 + 1 * (y 0).val = 5000 * t.val + (y 0).val
    rw [e5]; omega

/-- An index of the result lies in point t's block iff each coordinate lies in the block's range on its axis. -/
theorem mem_block (t : Fin cfg0.N) (i : S100000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v13).slice (win0_3.rect t)).set ↔ _
  rw [View.set_slice_whole, Rect.mem_set_unit]
  exact Iff.rfl

/-- Row r of the result lies in the block of point r / 5000: the written blocks tile the result. -/
theorem tiled (i : S100000x256.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 256 := (i 1).isLt
  let t : Fin cfg0.N := ⟨(i 0).val / 5000, by rw [hN]; omega⟩
  obtain ⟨-, -, -, -, -, e5, e6⟩ := index_maps t
  have ht : t.val = (i 0).val / 5000 := rfl
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e5, ht]; omega
  | ⟨1, _⟩ =>
    show win0_3.index t (1 : Fin 2) * 256 ≤ (i 1).val ∧ (i 1).val < win0_3.index t (1 : Fin 2) * 256 + 256
    rw [e6]; omega

/-- The result array after the region: the layer of the arrays the region found at its entry. -/
theorem result (c : Dev nD) :
    (dat0 V c).arrAt 3 cfg0.N = layer1 (V c main_arg0) (V c main_arg6) (V c main_arg7) :=
  (dat0 V c).arrAt_eq_of_cover 3 _ (fun t _ => written_back V c t) tiled

end Cert.KernelIdeal.Region0

end
-- ==== Proof.Region1.lean ====
/-
  Region 1 of the kernel: the layer max (x . w + b, 0) of a [50000, 128] matrix, computed over 10 blocks of 5000 rows.

  At grid point t the body loads rows 5000 t .. 5000 t + 4999 of the left factor, the whole [128, 256] weight and the
  whole [256] bias, and stores the layer of those: entry (p, f) of the stored block is
  max (sum over d of x (5000 t + p, d) * w (d, f) + b f, 0), which is entry (5000 t + p, f) of the layer of the whole
  matrix, since an entry of the layer reads one row of the left factor only. The 10 blocks written back tile the
  [50000, 256] result (row r lies in block r / 5000), so the result array ends holding the layer of the whole matrix,
  as one function of the arrays the region finds at its entry.
-/
import proofs.«142913_j82231443849935_1_alg».proof.Proof.Gen.KernelIdeal.Frame
import proofs.«142913_j82231443849935_1_alg».proof.Proof.LibLayerRows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.LibRowLayers Cert.LibLayerRows

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- What the body's one store leaves in the output's staging buffer is the layer of its three loaded blocks. -/
theorem stored_eq_layer (x0 : Vec Ideal S5000x128 .f32) (x1 : Vec Ideal S128x256 .f32) (x2 : Vec Ideal S256 .f32) :
    out1_3 (F := Ideal) x0 x1 x2 = layer1 x0 x1 x2 := by
  unfold out1_3
  rw [View.canon_unit_zero zero2]
  simp only [View.ld_unit_zero (S := S5000x128) zero2, View.ld_unit_zero (S := S128x256) zero2,
    View.ld_unit_zero (S := S256) zero1]
  unfold k1_pay1
  simp only [shapeCast_self]
  exact unit_layer1 _ rfl none x0 x1 x2 _ _ _

/-- The printed index maps over the grid: the left factor's and the result's block index is the point's number on the
    row axis and 0 on the column axis; the weight's and the bias's block index is 0. -/
theorem index_maps : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- The left factor's block at point t, at (p, d), is the array at (5000 t + p, d). -/
theorem rows_block (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c main_v12 : S50000x128.Idx → EReal) i := by
  obtain ⟨e0, e1, -⟩ := index_maps t
  unfold iblk1
  rw [View.read_apply]
  show V c main_v12 _ = V c main_v12 i
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The weight's block at any point is the whole weight. -/
theorem weight_block (c : Dev nD) (t : Fin cfg1.N) :
    (iblk1 V c 1 t : Vec Ideal S128x256 .f32) = (V c main_arg8 : S128x256.Idx → EReal) := by
  obtain ⟨-, -, e2, e3, -⟩ := index_maps t
  funext y
  unfold iblk1
  rw [View.read_apply]
  show V c main_arg8 _ = V c main_arg8 y
  refine congrArg _ (funext fun a => Fin.ext ?_)
  match a with
  | ⟨0, _⟩ => show win1_1.index t (0 : Fin 2) * 128 + 1 * (y 0).val = (y 0).val; rw [e2]; omega
  | ⟨1, _⟩ => show win1_1.index t (1 : Fin 2) * 256 + 1 * (y 1).val = (y 1).val; rw [e3]; omega

/-- The bias's block at any point is the whole bias. -/
theorem bias_block (c : Dev nD) (t : Fin cfg1.N) :
    (iblk1 V c 2 t : Vec Ideal S256 .f32) = (V c main_arg9 : S256.Idx → EReal) := by
  obtain ⟨-, -, -, -, e4, -⟩ := index_maps t
  funext y
  unfold iblk1
  rw [View.read_apply]
  show V c main_arg9 _ = V c main_arg9 y
  refine congrArg _ (funext fun a => Fin.ext ?_)
  match a with
  | ⟨0, _⟩ => show win1_2.index t (0 : Fin 1) * 256 + 1 * (y 0).val = (y 0).val; rw [e4]; omega

/-- What point t writes back is block t of the layer of the whole arrays. -/
theorem written_back (c : Dev nD) (t : Fin cfg1.N) :
    (dat1 V c).flushed 3 t
      = ((cfg1.win 3).blk t).view.read (Elt Ideal) (layer1 (V c main_v12) (V c main_arg8) (V c main_arg9)) := by
  show (cfg1.win 3).cut (grid1.coords t) ((dat1 V c).after 3 t) = _
  rw [after1_3, stored_eq_layer, weight_block, bias_block]
  obtain ⟨-, -, -, -, -, e5, e6⟩ := index_maps t
  funext y
  rw [View.read_apply]
  refine layer1_block (V c main_v12) _ (V c main_arg8) (V c main_arg9) y _ ?_ fun d => ?_
  · show win1_3.index t (1 : Fin 2) * 256 + 1 * (y 1).val = (y 1).val
    rw [e6]; omega
  · refine rows_block V c t _ _ ?_ rfl
    show win1_3.index t (0 : Fin 2) * 5000 + 1 * (y 0).val = 5000 * t.val + (y 0).val
    rw [e5]; omega

/-- An index of the result lies in point t's block iff each coordinate lies in the block's range on its axis. -/
theorem mem_block (t : Fin cfg1.N) (i : S50000x256.Idx) :
    i ∈ ((cfg1.win 3).blk t).view.set ↔ ∀ a : Fin 2, win1_3.index t a * S5000x256.size a ≤ (i a).val
      ∧ (i a).val < win1_3.index t a * S5000x256.size a + S5000x256.size a := by
  show i ∈ ((View.whole main_v14).slice (win1_3.rect t)).set ↔ _
  rw [View.set_slice_whole, Rect.mem_set_unit]
  exact Iff.rfl

/-- Row r of the result lies in the block of point r / 5000: the written blocks tile the result. -/
theorem tiled (i : S50000x256.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 256 := (i 1).isLt
  let t : Fin cfg1.N := ⟨(i 0).val / 5000, by rw [hN]; omega⟩
  obtain ⟨-, -, -, -, -, e5, e6⟩ := index_maps t
  have ht : t.val = (i 0).val / 5000 := rfl
  refine ⟨t, flush1_3 t, ?_⟩
  rw [mem_block]
  intro a
  match a with
  | ⟨0, _⟩ =>
    show win1_3.index t (0 : Fin 2) * 5000 ≤ (i 0).val ∧ (i 0).val < win1_3.index t (0 : Fin 2) * 5000 + 5000
    rw [e5, ht]; omega
  | ⟨1, _⟩ =>
    show win1_3.index t (1 : Fin 2) * 256 ≤ (i 1).val ∧ (i 1).val < win1_3.index t (1 : Fin 2) * 256 + 256
    rw [e6]; omega

/-- The result array after the region: the layer of the arrays the region found at its entry. -/
theorem result (c : Dev nD) :
    (dat1 V c).arrAt 3 cfg1.N = layer1 (V c main_v12) (V c main_arg8) (V c main_arg9) :=
  (dat1 V c).arrAt_eq_of_cover 3 _ (fun t _ => written_back V c t) tiled

end Cert.KernelIdeal.Region1

end
-- ==== Proof.KernelValues.lean ====
/-
  The kernel's two result arrays as functions of its argument arrays.

  The host stretch before the regions computes, from the node features x, the incidence rows, columns and values, the
  [50000, 128] matrix of hyperedge features: for each nonzero, row cols(k) of x (a negative column index counted from the
  end, as the indexing rule has it) scaled by vals(k), added into row rows(k) of a zero matrix. That chain of sixteen
  array operations is kept as ONE function, `edgeRows`, and never opened: the reference applies the same chain.

  Region 0 reads x, W0 and b0, which no host operation writes, so it finds them as launched and leaves the layer
  max (x . W0 + b0, 0) in its result; region 0 writes no array region 1 reads, so region 1 finds `edgeRows` of the
  arguments, W1 and b1, and leaves max (edgeRows . W1 + b1, 0).
-/
import proofs.«142913_j82231443849935_1_alg».proof.Proof.KernelRun
import proofs.«142913_j82231443849935_1_alg».proof.Proof.Region0
import proofs.«142913_j82231443849935_1_alg».proof.Proof.Region1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Values

open Cert.KernelIdeal Cert.KernelIdeal.Gen Cert.LibRowLayers

/-- The hyperedge features: the host stretch's last result as one function of the four arrays it reads. -/
def edgeRows (x : (⟨S100000x128, .f32⟩ : BufTy).Contents (Elt Ideal)) (rows cols : (⟨S1600000, .i32⟩ : BufTy).Contents (Elt Ideal))
    (vals : (⟨S1600000, .f32⟩ : BufTy).Contents (Elt Ideal)) : (⟨S50000x128, .f32⟩ : BufTy).Contents (Elt Ideal) :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 rows)
    (mulf (F := Ideal)
      (Host.gather gather_S100000x128_S1600000x1_S1600000x128_1_0_n_n_0_1_1128 x
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols)))
      (broadcastInDim S1600000x128 ![0, 1] bcast_S1600000x1_S1600000x128_0_1
        (broadcastInDim S1600000x1 ![0] bcast_S1600000_S1600000x1_0 vals)))

variable (m : (ℓ : Loc nD τ sig) → Buf (Elt Ideal) ℓ) (ρ : Dev nD → PrngReg)

/-! ## What region 0 finds: its three input arrays as launched -/

theorem entry0_x (c : Dev nD) : V1 m ρ c main_arg0 = m ((c.tc : Thread nD τ).loc main_arg0) := by
  show StableHlo.after hostOps0 (W0 m ρ c) (Proc.devRef .tc main_arg0) = _
  after_results
theorem entry0_w (c : Dev nD) : V1 m ρ c main_arg6 = m ((c.tc : Thread nD τ).loc main_arg6) := by
  show StableHlo.after hostOps0 (W0 m ρ c) (Proc.devRef .tc main_arg6) = _
  after_results
theorem entry0_b (c : Dev nD) : V1 m ρ c main_arg7 = m ((c.tc : Thread nD τ).loc main_arg7) := by
  show StableHlo.after hostOps0 (W0 m ρ c) (Proc.devRef .tc main_arg7) = _
  after_results

/-! ## What region 1 finds: the hyperedge features, and its weight and bias as launched -/

theorem entry1_x (c : Dev nD) :
    V2 m ρ c main_v12 = edgeRows (m ((c.tc : Thread nD τ).loc main_arg0)) (m ((c.tc : Thread nD τ).loc main_arg1)) (m ((c.tc : Thread nD τ).loc main_arg2)) (m ((c.tc : Thread nD τ).loc main_arg3)) := by
  show W2 m ρ c (Proc.devRef .tc main_v12) = _
  rw [W2_of_ne m ρ c main_v12 (by decide)]
  show StableHlo.after hostOps0 (W0 m ρ c) (Proc.devRef .tc main_v12) = _
  after_results
  rfl
theorem entry1_w (c : Dev nD) : V2 m ρ c main_arg8 = m ((c.tc : Thread nD τ).loc main_arg8) := by
  show W2 m ρ c (Proc.devRef .tc main_arg8) = _
  rw [W2_of_ne m ρ c main_arg8 (by decide)]
  show StableHlo.after hostOps0 (W0 m ρ c) (Proc.devRef .tc main_arg8) = _
  after_results
theorem entry1_b (c : Dev nD) : V2 m ρ c main_arg9 = m ((c.tc : Thread nD τ).loc main_arg9) := by
  show W2 m ρ c (Proc.devRef .tc main_arg9) = _
  rw [W2_of_ne m ρ c main_arg9 (by decide)]
  show StableHlo.after hostOps0 (W0 m ρ c) (Proc.devRef .tc main_arg9) = _
  after_results

/-! ## The two result arrays at the end of the run -/

/-- Region 1 does not write region 0's result, which is the layer of x, W0 and b0. -/
theorem nodes_result (c : Dev nD) :
    W3 m ρ c (Proc.devRef .tc main_v13) = layer1 (m ((c.tc : Thread nD τ).loc main_arg0)) (m ((c.tc : Thread nD τ).loc main_arg6)) (m ((c.tc : Thread nD τ).loc main_arg7)) := by
  rw [W3_of_ne m ρ c main_v13 (by decide)]
  refine (W2_arr m ρ c 3).trans ?_
  rw [Region0.result (V1 m ρ) c, entry0_x, entry0_w, entry0_b]

/-- Region 1's result is the layer of the hyperedge features, W1 and b1. -/
theorem edges_result (c : Dev nD) :
    W3 m ρ c (Proc.devRef .tc main_v14)
      = layer1 (edgeRows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8)) (m ((c.tc : Thread nD τ).loc main_arg9)) := by
  refine (W3_arr m ρ c 3).trans ?_
  rw [Region1.result (V2 m ρ) c, entry1_x, entry1_w, entry1_b]

/-- The kernel's run: every weakly fair execution terminates, nothing faulting, with the two result arrays at the two
    layers and the argument arrays as launched. -/
theorem run : θ_run defs (onTc (τ := τ) (main (F := Ideal))) ⟨m, fun _ => 0, ρ⟩ (fun r => ∀ c : Dev nD,
      r.2.mem ((c.tc : Thread nD τ).loc main_v13) = layer1 (m ((c.tc : Thread nD τ).loc main_arg0)) (m ((c.tc : Thread nD τ).loc main_arg6)) (m ((c.tc : Thread nD τ).loc main_arg7))
      ∧ r.2.mem ((c.tc : Thread nD τ).loc main_v14)
          = layer1 (edgeRows (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (nodes_result m ρ c), (h c).2.1.trans (edges_result m ρ c), (h c).2.2⟩)
    (Cert.KernelIdeal.Outputs.run (F := Ideal) m ρ)

end Cert.KernelIdeal.Values

end
-- ==== Proof.ReferenceLayers.lean ====
/-
  The reference's two results as dense layers with a rectifier.

  The reference computes relu (x @ W0 + b0) and relu (x1 @ W1 + b1) with the host's array operations: a dot_general
  contracting the left factor's columns with the weight's rows, the bias placed on axis 1 of [1, 256] and spread over
  the rows, and a maximum with a spread scalar zero. At every index that is max (sum over d of x (p, d) * w (d, f) + b f, 0),
  the row function `layer1`, whatever the number of rows.
-/
import proofs.«142913_j82231443849935_1_alg».proof.Proof.Gen.ReferenceIdeal.Run
import proofs.«142913_j82231443849935_1_alg».proof.Proof.LibRowLayers

noncomputable section

open Idealize.ShloMosaic

namespace Cert.ReferenceIdeal.Layers

open Cert.ReferenceIdeal Cert.ReferenceIdeal.Facts₀ Cert.LibRowLayers

/-- The node branch: relu (x @ W0 + b0) over the 100000 nodes. -/
theorem nodes_layer (x : FVec Ideal S100000x128 .f32) (w : FVec Ideal S128x256 .f32) (b : FVec Ideal S256 .f32) :
    maximumf (addf (Host.dotGeneral dot_S100000x128_S128x256_S100000x256_1_0_0_1_n_n none x w)
        (broadcastInDim S100000x256 ![0, 1] bcast_S1x256_S100000x256_0_1 (broadcastInDim S1x256 ![1] bcast_S256_S1x256_1 b)))
      (broadcastInDim S100000x256 ![] bcast_S_S100000x256 (constant (F := Ideal) S_ .f32 0x00000000#32))
    = layer1 x w b :=
  host_layer1 _ rfl none x w b _ _ _

/-- The hyperedge branch: relu (x1 @ W1 + b1) over the 50000 hyperedges. -/
theorem edges_layer (x : FVec Ideal S50000x128 .f32) (w : FVec Ideal S128x256 .f32) (b : FVec Ideal S256 .f32) :
    maximumf (addf (Host.dotGeneral dot_S50000x128_S128x256_S50000x256_1_0_0_1_n_n none x w)
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
    = layer1 x w b :=
  host_layer1 _ rfl none x w b _ _ _

end Cert.ReferenceIdeal.Layers

end
-- ==== Proof.lean ====
/-
  Two dense layers with a rectifier, one over the nodes and one over the hyperedges of a hypergraph.

  Both programs first form the hyperedge features x1 [50000, 128] from the node features x [100000, 128] and the
  incidence triples (rows, cols, vals): the same sixteen array operations in both, carried here as one function and never
  opened. Then they return (y, batch_0, max (x . W0 + b0, 0), max (x1 . W1 + b1, 0)). The kernel computes each layer in
  blocks of 5000 rows (20 blocks, then 10), narrowing both factors to bf16 before a matrix product into a zero
  accumulator; the reference uses one dot_general per layer. On the extended reals the narrowing is the identity and
  both matrix products are the plain sum over d of x (p, d) * w (d, f), in the same order, so at every index the two
  programs evaluate ONE expression, max (sum + b f, 0): no law of arithmetic is used, and nothing is assumed of the
  inputs. An entry of a layer reads one row of its left factor, so the row blocks computed separately are the rows of
  the layer of the whole matrix.

  The idealized kernel is the kernel's own text read on the extended reals (no operation of it was rewritten), so the
  conjunct about that reading is stated as True; the three frame conjuncts are the generated frames of the two kernel
  programs and the reference's generated run with its results dropped.
-/
import proofs.«142913_j82231443849935_1_alg».proof.Defs
import proofs.«142913_j82231443849935_1_alg».proof.Proof.Gen.Kernel
import proofs.«142913_j82231443849935_1_alg».proof.Proof.Gen.Kernel.Frame
import proofs.«142913_j82231443849935_1_alg».proof.Proof.Gen.KernelIdeal
import proofs.«142913_j82231443849935_1_alg».proof.Proof.Gen.KernelIdeal.Frame
import proofs.«142913_j82231443849935_1_alg».proof.Proof.Gen.ReferenceIdeal
import proofs.«142913_j82231443849935_1_alg».proof.Proof.Gen.ReferenceIdeal.Run
import proofs.«142913_j82231443849935_1_alg».proof.Proof.Gen.Pre_finite_inputs
import proofs.«142913_j82231443849935_1_alg».proof.Proof.KernelValues
import proofs.«142913_j82231443849935_1_alg».proof.Proof.ReferenceLayers

noncomputable section

namespace Cert.Proof

open Idealize.ShloMosaic Idealize.SL.Sem Cert.LibRowLayers

/-- The reference's hyperedge features are the kernel's: the same chain of array operations on the same arrays. -/
theorem edge_rows_same (x : FVec Ideal Cert.ReferenceIdeal.S100000x128 .f32)
    (rows cols : (⟨Cert.ReferenceIdeal.S1600000, .i32⟩ : BufTy).Contents (Elt Ideal))
    (vals : FVec Ideal Cert.ReferenceIdeal.S1600000 .f32) :
    Host.scatterAdd (F := Ideal) Cert.ReferenceIdeal.scatter_S50000x128_S1600000x1_S1600000x128_1_0_0_1
      (broadcastInDim Cert.ReferenceIdeal.S50000x128 ![] Cert.ReferenceIdeal.Facts₀.bcast_S_S50000x128
        (constant (F := Ideal) Cert.ReferenceIdeal.S_ .f32 0x00000000#32))
      (broadcastInDim Cert.ReferenceIdeal.S1600000x1 ![0] Cert.ReferenceIdeal.Facts₀.bcast_S1600000_S1600000x1_0 rows)
      (mulf (F := Ideal)
        (Host.gather Cert.ReferenceIdeal.gather_S100000x128_S1600000x1_S1600000x128_1_0_n_n_0_1_1128 x
          (broadcastInDim Cert.ReferenceIdeal.S1600000x1 ![0] Cert.ReferenceIdeal.Facts₀.bcast_S1600000_S1600000x1_0
            (select (cmpi .slt cols (broadcastInDim Cert.ReferenceIdeal.S1600000 ![] Cert.ReferenceIdeal.Facts₀.bcast_S_S1600000
                (constantI Cert.ReferenceIdeal.S_ 32 0#32)))
              (addi cols (broadcastInDim Cert.ReferenceIdeal.S1600000 ![] Cert.ReferenceIdeal.Facts₀.bcast_S_S1600000
                (constantI Cert.ReferenceIdeal.S_ 32 100000#32))) cols)))
        (broadcastInDim Cert.ReferenceIdeal.S1600000x128 ![0, 1] Cert.ReferenceIdeal.Facts₀.bcast_S1600000x1_S1600000x128_0_1
          (broadcastInDim Cert.ReferenceIdeal.S1600000x1 ![0] Cert.ReferenceIdeal.Facts₀.bcast_S1600000_S1600000x1_0 vals)))
    = Cert.KernelIdeal.Values.edgeRows x rows cols vals := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono
    (fun _ h c => ⟨(h c).2.2.2.2.1, (h c).2.2.2.2.2.1, (h c).2.2.2.2.2.2.1, (h c).2.2.2.2.2.2.2.1, (h c).2.2.2.2.2.2.2.2.1,
      (h c).2.2.2.2.2.2.2.2.2.1, (h c).2.2.2.2.2.2.2.2.2.2.1, (h c).2.2.2.2.2.2.2.2.2.2.2.1, (h c).2.2.2.2.2.2.2.2.2.2.2.2.1,
      (h c).2.2.2.2.2.2.2.2.2.2.2.2.2⟩)
    (Cert.ReferenceIdeal.Value.run (F := Ideal) m ρ)

theorem preserves : Cert.preserves_Kernel_KernelIdeal := trivial

/-- The two programs, run from memories that agree on the ten arguments, end with the same four results: y and batch_0
    as given, and the two layers, which both programs compute as the one row function of the same arrays. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg4), fun c => m ((c.tc : Thread Cert.KernelIdeal.nD Cert.KernelIdeal.τ).loc Cert.KernelIdeal.main_arg5),
    fun c => layer1 (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => layer1 (Cert.KernelIdeal.Values.edgeRows (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    ?_, ?_⟩
  · refine (θ_run Cert.KernelIdeal.defs _ _).mono (fun r h c => ?_) (Cert.KernelIdeal.Values.run m ρ)
    obtain ⟨h13, h14, a0, a1, a2, a3, a4, a5, a6, a7, a8, a9⟩ := h c
    exact ⟨a4, a5, h13, h14, a0, a1, a2, a3, a4, a5, a6, a7, a8, a9⟩
  · refine (θ_run Cert.ReferenceIdeal.defs _ _).mono (fun r h c => ?_) (Cert.ReferenceIdeal.Value.run (F := Ideal) m' ρ')
    obtain ⟨r4, r5, r17, r22, a0, a1, a2, a3, a4, a5, a6, a7, a8, a9⟩ := h c
    obtain ⟨e0, e1, e2, e3, e4, e5, e6, e7, e8, e9⟩ := hagree c
    refine ⟨r4.trans e4, r5.trans e5, r17.trans ?_, r22.trans ?_, a0, a1, a2, a3, a4, a5, a6, a7, a8, a9⟩
    · rw [Cert.ReferenceIdeal.Layers.nodes_layer, e0, e6, e7]
    · rw [Cert.ReferenceIdeal.Layers.edges_layer, edge_rows_same, e0, e1, e2, e3, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
